-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x32x2048 : Shape := ⟨4, ![128, 4, 32, 2048]⟩
abbrev S128 : Shape := ⟨1, ![128]⟩
abbrev S128x2048 : Shape := ⟨2, ![128, 2048]⟩
abbrev S128x32 : Shape := ⟨2, ![128, 32]⟩
abbrev S_ : Shape := ⟨0, ![]⟩

class Facts : Prop where
  bcast_S_S128x4x32x2048 : S_.BroadcastsInDim S128x4x32x2048 (![] : Fin 0 → Fin S128x4x32x2048.rank)
  reducesTo_S128x4x32x2048_S_d0_1_2_3 : S128x4x32x2048.ReducesTo [0, 1, 2, 3] S_
  h_S_ : 0 < S_.numel

variable [Facts]

def fn {F : FTy → Type} [FloatOps F] (main_arg0 : FVec F S128x4x32x2048 .f32) (main_arg1 : IVec S128 32) (main_arg2 : IVec S128x2048 32) (main_arg3 : IVec S128x32 32) : IVec S_ 1 :=
  let main_v0 : FVec F S128x4x32x2048 .f32 := Host.absf main_arg0
  let main_cst : FVec F S_ .f32 := constant S_ .f32 0x7F800000#32
  let main_v1 : FVec F S128x4x32x2048 .f32 := broadcastInDim S128x4x32x2048 ![] bcast_S_S128x4x32x2048 main_cst
  let main_v2 : IVec S128x4x32x2048 1 := cmpf .olt main_v0 main_v1
  let main_c : IVec S_ 1 := constantI S_ 1 1#1
  let main_v3 : IVec S_ 1 := (fun x v => Host.reduce IntOp.andi x v reducesTo_S128x4x32x2048_S_d0_1_2_3 h_S_) main_v2 main_c
  let main_cst_0 : FVec F S_ .f32 := constant S_ .f32 0xBF800000#32
  let main_v4 : FVec F S128x4x32x2048 .f32 := broadcastInDim S128x4x32x2048 ![] bcast_S_S128x4x32x2048 main_cst_0
  let main_v5 : IVec S128x4x32x2048 1 := cmpf .oge main_arg0 main_v4
  let main_c_1 : IVec S_ 1 := constantI S_ 1 1#1
  let main_v6 : IVec S_ 1 := (fun x v => Host.reduce IntOp.andi x v reducesTo_S128x4x32x2048_S_d0_1_2_3 h_S_) main_v5 main_c_1
  let main_v7 : IVec S_ 1 := andi main_v3 main_v6
  let main_cst_2 : FVec F S_ .f32 := constant S_ .f32 0x3F800000#32
  let main_v8 : FVec F S128x4x32x2048 .f32 := broadcastInDim S128x4x32x2048 ![] bcast_S_S128x4x32x2048 main_cst_2
  let main_v9 : IVec S128x4x32x2048 1 := cmpf .olt main_arg0 main_v8
  let main_c_3 : IVec S_ 1 := constantI S_ 1 1#1
  let main_v10 : IVec S_ 1 := (fun x v => Host.reduce IntOp.andi x v reducesTo_S128x4x32x2048_S_d0_1_2_3 h_S_) main_v9 main_c_3
  let main_v11 : IVec S_ 1 := andi main_v7 main_v10
  main_v11
-- ==== Kernel.lean ====
abbrev S128x4x32x2048 : Shape := ⟨4, ![128, 4, 32, 2048]⟩
abbrev S128 : Shape := ⟨1, ![128]⟩
abbrev S128x2048 : Shape := ⟨2, ![128, 2048]⟩
abbrev S128x32 : Shape := ⟨2, ![128, 32]⟩
abbrev S128x1x2048 : Shape := ⟨3, ![128, 1, 2048]⟩
abbrev S128x32x1 : Shape := ⟨3, ![128, 32, 1]⟩
abbrev S128x4x32x30 : Shape := ⟨4, ![128, 4, 32, 30]⟩
abbrev S1x4x32x2048 : Shape := ⟨4, ![1, 4, 32, 2048]⟩
abbrev S1x1x2048 : Shape := ⟨3, ![1, 1, 2048]⟩
abbrev S1x32x1 : Shape := ⟨3, ![1, 32, 1]⟩
abbrev S1x4x32x30 : Shape := ⟨4, ![1, 4, 32, 30]⟩
abbrev S4x32x2048 : Shape := ⟨3, ![4, 32, 2048]⟩
abbrev S1x2048 : Shape := ⟨2, ![1, 2048]⟩
abbrev S32x1 : Shape := ⟨2, ![32, 1]⟩
abbrev S32x2048 : Shape := ⟨2, ![32, 2048]⟩
abbrev S1x32x2048 : Shape := ⟨3, ![1, 32, 2048]⟩
abbrev S4x32 : Shape := ⟨2, ![4, 32]⟩
abbrev S4x32x1 : Shape := ⟨3, ![4, 32, 1]⟩
abbrev S4x32x30 : Shape := ⟨3, ![4, 32, 30]⟩

abbrev nBuf : Space → Nat
  | .hbm => 7
  | .vmem => 8
  | .smem => 0
  | _ => 0

abbrev bufTy : (tb : Table) → Fin (tcTables nBuf tb) → BufTy
  | .hbm, ⟨0, _⟩ => ⟨S128x4x32x2048, .f32⟩
  | .hbm, ⟨1, _⟩ => ⟨S128, .i32⟩
  | .hbm, ⟨2, _⟩ => ⟨S128x2048, .i32⟩
  | .hbm, ⟨3, _⟩ => ⟨S128x32, .i32⟩
  | .hbm, ⟨4, _⟩ => ⟨S128x1x2048, .i32⟩
  | .hbm, ⟨5, _⟩ => ⟨S128x32x1, .i32⟩
  | .hbm, ⟨6, _⟩ => ⟨S128x4x32x30, .f32⟩
  | .local _ .vmem, ⟨0, _⟩ => ⟨S1x4x32x2048, .f32⟩
  | .local _ .vmem, ⟨1, _⟩ => ⟨S1x4x32x2048, .f32⟩
  | .local _ .vmem, ⟨2, _⟩ => ⟨S1x1x2048, .i32⟩
  | .local _ .vmem, ⟨3, _⟩ => ⟨S1x1x2048, .i32⟩
  | .local _ .vmem, ⟨4, _⟩ => ⟨S1x32x1, .i32⟩
  | .local _ .vmem, ⟨5, _⟩ => ⟨S1x32x1, .i32⟩
  | .local _ .vmem, ⟨6, _⟩ => ⟨S1x4x32x30, .f32⟩
  | .local _ .vmem, ⟨7, _⟩ => ⟨S1x4x32x30, .f32⟩
  | _, _ => ⟨S128x4x32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x32x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x32x30 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S128x2048_S128x1x2048_0_2 : S128x2048.BroadcastsInDim S128x1x2048 (![0, 2] : Fin 2 → Fin S128x1x2048.rank)
  bcast_S128x32_S128x32x1_0_1 : S128x32.BroadcastsInDim S128x32x1 (![0, 1] : Fin 2 → Fin S128x32x1.rank)
  inb_S1x4x32x2048_S1x4x32x2048_0_0_0_0 : ∀ a, (![0, 0, 0, 0] : Fin 4 → Nat) a + S1x4x32x2048.size a ≤ S1x4x32x2048.size a
  h_S1x4x32x2048 : 0 < S1x4x32x2048.numel
  shapeCasts_S1x4x32x2048_S4x32x2048 : S1x4x32x2048.ShapeCasts S4x32x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  natLt_1_32 : 1 < 32
  inb_S1x32x1_S1x32x1_0_0_0 : ∀ a, (![0, 0, 0] : Fin 3 → Nat) a + S1x32x1.size a ≤ S1x32x1.size a
  h_S1x32x1 : 0 < S1x32x1.numel
  shapeCasts_S1x32x1_S32x1 : S1x32x1.ShapeCasts S32x1
  broadcasts_S32x1_S32x2048 : S32x1.Broadcasts S32x2048
  broadcasts_S1x2048_S32x2048 : S1x2048.Broadcasts S32x2048
  shapeCasts_S32x2048_S1x32x2048 : S32x2048.ShapeCasts S1x32x2048
  shapeCasts_S1x32x2048_S1x32x2048 : S1x32x2048.ShapeCasts S1x32x2048
  broadcasts_S1x32x2048_S4x32x2048 : S1x32x2048.Broadcasts S4x32x2048
  reduces_S4x32x2048_S4x32 : S4x32x2048.Reduces [2] S4x32
  shapeCasts_S4x32_S4x32x1 : S4x32.ShapeCasts S4x32x1
  concatenates_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x1_S4x32x30_d2 : Shape.Concatenates [S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1, S4x32x1] S4x32x30 2
  inb_S1x4x32x30_S1x4x32x30_0_0_0_0 : ∀ a, (![0, 0, 0, 0] : Fin 4 → Nat) a + S1x4x32x30.size a ≤ S1x4x32x30.size a
  h_S1x4x32x30 : 0 < S1x4x32x30.numel
  shapeCasts_S1x4x32x30_S4x32x30 : S1x4x32x30.ShapeCasts S4x32x30
  shapeCasts_S4x32x30_S1x4x32x30 : S4x32x30.ShapeCasts S1x4x32x30
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x32x2048.size a ≤ S128x4x32x2048.size a
  hwx0_0 : ∀ i : grid0.Coords, EltTy.bits .f32 = 32 ∨ (Rect.block (s := S128x4x32x2048) S1x4x32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S128x1x2048.size a
  hwx0_1 : ∀ i : grid0.Coords, EltTy.bits .i32 = 32 ∨ (Rect.block (s := S128x1x2048) S1x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x1.size a ≤ S128x32x1.size a
  hwx0_2 : ∀ i : grid0.Coords, EltTy.bits .i32 = 32 ∨ (Rect.block (s := S128x32x1) S1x32x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x32x30.size a ≤ S128x4x32x30.size a
  hwx0_3 : ∀ i : grid0.Coords, EltTy.bits .f32 = 32 ∨ (Rect.block (s := S128x4x32x30) S1x4x32x30.size (cc0_transform_3 i) (hinb0_3 i)).WholeWords (EltTy.packing .f32)

variable [Facts₀]

abbrev win0_0 : Pipeline.Window sig grid0 :=
  Pipeline.Window.ofSpec (Memref.whole main_arg0) S1x4x32x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x4x32x30.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x4x32x2048 : Shape := ⟨4, ![128, 4, 32, 2048]⟩
abbrev S128 : Shape := ⟨1, ![128]⟩
abbrev S128x2048 : Shape := ⟨2, ![128, 2048]⟩
abbrev S128x32 : Shape := ⟨2, ![128, 32]⟩
abbrev S_ : Shape := ⟨0, ![]⟩
abbrev S128x1x2048 : Shape := ⟨3, ![128, 1, 2048]⟩
abbrev S128x32x1 : Shape := ⟨3, ![128, 32, 1]⟩
abbrev S128x32x2048 : Shape := ⟨3, ![128, 32, 2048]⟩
abbrev S128x1x32x2048 : Shape := ⟨4, ![128, 1, 32, 2048]⟩
abbrev S16384 : Shape := ⟨1, ![16384]⟩
abbrev S16384x1 : Shape := ⟨2, ![16384, 1]⟩
abbrev S16384x2048 : Shape := ⟨2, ![16384, 2048]⟩
abbrev S33554432 : Shape := ⟨1, ![33554432]⟩
abbrev S491520 : Shape := ⟨1, ![491520]⟩
abbrev S33554432x1 : Shape := ⟨2, ![33554432, 1]⟩
abbrev S128x4x32x30 : Shape := ⟨4, ![128, 4, 32, 30]⟩

abbrev nBuf : Space → Nat
  | .hbm => 50
  | .vmem => 0
  | .smem => 0
  | _ => 0

abbrev bufTy : (tb : Table) → Fin (tcTables nBuf tb) → BufTy
  | .hbm, ⟨0, _⟩ => ⟨S128x4x32x2048, .f32⟩
  | .hbm, ⟨1, _⟩ => ⟨S128, .i32⟩
  | .hbm, ⟨2, _⟩ => ⟨S128x2048, .i32⟩
  | .hbm, ⟨3, _⟩ => ⟨S128x32, .i32⟩
  | .hbm, ⟨4, _⟩ => ⟨S_, .f32⟩
  | .hbm, ⟨5, _⟩ => ⟨S128x4x32x2048, .f32⟩
  | .hbm, ⟨6, _⟩ => ⟨S128x4x32x2048, .f32⟩
  | .hbm, ⟨7, _⟩ => ⟨S_, .f32⟩
  | .hbm, ⟨8, _⟩ => ⟨S128x4x32x2048, .f32⟩
  | .hbm, ⟨9, _⟩ => ⟨S128x4x32x2048, .f32⟩
  | .hbm, ⟨10, _⟩ => ⟨S_, .f32⟩
  | .hbm, ⟨11, _⟩ => ⟨S128x4x32x2048, .f32⟩
  | .hbm, ⟨12, _⟩ => ⟨S128x4x32x2048, .f32⟩
  | .hbm, ⟨13, _⟩ => ⟨S128x4x32x2048, .i32⟩
  | .hbm, ⟨14, _⟩ => ⟨S_, .i32⟩
  | .hbm, ⟨15, _⟩ => ⟨S128x2048, .i32⟩
  | .hbm, ⟨16, _⟩ => ⟨S128x2048, .i1⟩
  | .hbm, ⟨17, _⟩ => ⟨S128x1x2048, .i1⟩
  | .hbm, ⟨18, _⟩ => ⟨S_, .i32⟩
  | .hbm, ⟨19, _⟩ => ⟨S128x32, .i32⟩
  | .hbm, ⟨20, _⟩ => ⟨S128x32, .i1⟩
  | .hbm, ⟨21, _⟩ => ⟨S128x32x1, .i1⟩
  | .hbm, ⟨22, _⟩ => ⟨S128x32x2048, .i1⟩
  | .hbm, ⟨23, _⟩ => ⟨S128x32x2048, .i1⟩
  | .hbm, ⟨24, _⟩ => ⟨S128x32x2048, .i1⟩
  | .hbm, ⟨25, _⟩ => ⟨S128x32x2048, .f32⟩
  | .hbm, ⟨26, _⟩ => ⟨S128x1x32x2048, .f32⟩
  | .hbm, ⟨27, _⟩ => ⟨S128x4x32x2048, .f32⟩
  | .hbm, ⟨28, _⟩ => ⟨S16384, .i32⟩
  | .hbm, ⟨29, _⟩ => ⟨S16384x1, .i32⟩
  | .hbm, ⟨30, _⟩ => ⟨S_, .i32⟩
  | .hbm, ⟨31, _⟩ => ⟨S16384x1, .i32⟩
  | .hbm, ⟨32, _⟩ => ⟨S16384x1, .i32⟩
  | .hbm, ⟨33, _⟩ => ⟨S16384x2048, .i32⟩
  | .hbm, ⟨34, _⟩ => ⟨S16384x2048, .i32⟩
  | .hbm, ⟨35, _⟩ => ⟨S16384x2048, .i32⟩
  | .hbm, ⟨36, _⟩ => ⟨S33554432, .i32⟩
  | .hbm, ⟨37, _⟩ => ⟨S_, .f32⟩
  | .hbm, ⟨38, _⟩ => ⟨S491520, .f32⟩
  | .hbm, ⟨39, _⟩ => ⟨S33554432, .f32⟩
  | .hbm, ⟨40, _⟩ => ⟨S_, .i32⟩
  | .hbm, ⟨41, _⟩ => ⟨S33554432, .i32⟩
  | .hbm, ⟨42, _⟩ => ⟨S33554432, .i1⟩
  | .hbm, ⟨43, _⟩ => ⟨S_, .i32⟩
  | .hbm, ⟨44, _⟩ => ⟨S33554432, .i32⟩
  | .hbm, ⟨45, _⟩ => ⟨S33554432, .i32⟩
  | .hbm, ⟨46, _⟩ => ⟨S33554432, .i32⟩
  | .hbm, ⟨47, _⟩ => ⟨S33554432x1, .i32⟩
  | .hbm, ⟨48, _⟩ => ⟨S491520, .f32⟩
  | .hbm, ⟨49, _⟩ => ⟨S128x4x32x30, .f32⟩
  | _, _ => ⟨S128x4x32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S_S128x4x32x2048 : S_.BroadcastsInDim S128x4x32x2048 (![] : Fin 0 → Fin S128x4x32x2048.rank)
  bcast_S_S128x2048 : S_.BroadcastsInDim S128x2048 (![] : Fin 0 → Fin S128x2048.rank)
  bcast_S128x2048_S128x1x2048_0_2 : S128x2048.BroadcastsInDim S128x1x2048 (![0, 2] : Fin 2 → Fin S128x1x2048.rank)
  bcast_S_S128x32 : S_.BroadcastsInDim S128x32 (![] : Fin 0 → Fin S128x32.rank)
  bcast_S128x32_S128x32x1_0_1 : S128x32.BroadcastsInDim S128x32x1 (![0, 1] : Fin 2 → Fin S128x32x1.rank)
  bcast_S128x1x2048_S128x32x2048_0_1_2 : S128x1x2048.BroadcastsInDim S128x32x2048 (![0, 1, 2] : Fin 3 → Fin S128x32x2048.rank)
  bcast_S128x32x1_S128x32x2048_0_1_2 : S128x32x1.BroadcastsInDim S128x32x2048 (![0, 1, 2] : Fin 3 → Fin S128x32x2048.rank)
  bcast_S128x32x2048_S128x1x32x2048_0_2_3 : S128x32x2048.BroadcastsInDim S128x1x32x2048 (![0, 2, 3] : Fin 3 → Fin S128x1x32x2048.rank)
  bcast_S128x1x32x2048_S128x4x32x2048_0_1_2_3 : S128x1x32x2048.BroadcastsInDim S128x4x32x2048 (![0, 1, 2, 3] : Fin 4 → Fin S128x4x32x2048.rank)
  bcast_S16384_S16384x1_0 : S16384.BroadcastsInDim S16384x1 (![0] : Fin 1 → Fin S16384x1.rank)
  bcast_S_S16384x1 : S_.BroadcastsInDim S16384x1 (![] : Fin 0 → Fin S16384x1.rank)
  shapeCasts_S128x4x32x2048_S16384x2048 : S128x4x32x2048.ShapeCasts S16384x2048
  bcast_S16384x1_S16384x2048_0_1 : S16384x1.BroadcastsInDim S16384x2048 (![0, 1] : Fin 2 → Fin S16384x2048.rank)
  shapeCasts_S16384x2048_S33554432 : S16384x2048.ShapeCasts S33554432
  bcast_S_S491520 : S_.BroadcastsInDim S491520 (![] : Fin 0 → Fin S491520.rank)
  shapeCasts_S128x4x32x2048_S33554432 : S128x4x32x2048.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S491520_S128x4x32x30 : S491520.ShapeCasts S128x4x32x30
  scatter_S491520_S33554432x1_S33554432_n_0_0_1_wf : ScatterDims.WF S491520 S33554432x1 S33554432 [] [0] [0] 1

variable [Facts₀]

def scatter_S491520_S33554432x1_S33554432_n_0_0_1 : ScatterDims S491520 S33554432x1 S33554432 where
  updateWindowDims := []
  insertedWindowDims := [0]
  scatterDimsToOperandDims := [0]
  indexVectorDim := 1
  wf := scatter_S491520_S33554432x1_S33554432_n_0_0_1_wf

class Facts : Prop extends Facts₀ where

variable [Facts]
-- ==== Proof.Spec.lean ====
/-
  The histogram both programs compute, as one function of the argument arrays.

  For a batch row `b`, channel `c`, query position `q` and bin `v`, the result is the number of document
  positions `d` whose similarity value falls in bin `v`, each counted with weight 1 when both the query token
  at `(b, q)` and the document token at `(b, d)` are present (not the padding value -1) and 0 otherwise:

      G x dt qt (b, c, q, v) = ∑ d, [bin (x (b, c, q, d)) = v] · (valid (qt (b, q)) · valid (dt (b, d)))

  where `bin s = trunc ((s + 1.00001) / 2 · 29)` as a 32-bit integer. Nothing here mentions a program.
-/
import Idealize.ShloMosaic.PureOps
import Idealize.ShloMosaic.Lib.ValueIdx

noncomputable section

namespace Cert.Hist

open Idealize.ShloMosaic Idealize.ShloMosaic.ValueIdx

/-- The bin of a similarity value: `(s + 1.00001) / 2 · 29` truncated toward zero to a 32-bit integer (the three
    constants are the f32 patterns of 1.00001, 2 and 29). -/
def binOf (s : EReal) : BitVec 32 :=
  Ideal.fptosi 32 (Ideal.div (s + Ideal.ofBits .f32 0x3F800054#32) (Ideal.ofBits .f32 0x40000000#32)
    * Ideal.ofBits .f32 0x41E80000#32)

/-- 1 when the token is present (not the padding value -1), else 0. -/
def valid (t : BitVec 32) : EReal := ((((IntOp.cmpi .ne t 4294967295#32).setWidth 32).toInt : ℝ) : EReal)

/-- 1 when the bin `b` is the bin `v`, else 0. -/
def hit (b v : BitVec 32) : EReal := ((((IntOp.cmpi .eq b v).setWidth 32).toInt : ℝ) : EReal)

/-- The histogram at explicit coordinates. -/
def Gat (x : (⟨4, ![128, 4, 32, 2048]⟩ : Shape).Idx → EReal) (dt : (⟨2, ![128, 2048]⟩ : Shape).Idx → BitVec 32)
    (qt : (⟨2, ![128, 32]⟩ : Shape).Idx → BitVec 32) (b : Fin 128) (c : Fin 4) (q : Fin 32) (v : Fin 30) : EReal :=
  ∑ d : Fin 2048, hit (binOf (x (ix4 b c q d))) (BitVec.ofNat 32 v.val) * (valid (qt (ix2 b q)) * valid (dt (ix2 b d)))

/-- The histogram as an array. -/
def G (x : (⟨4, ![128, 4, 32, 2048]⟩ : Shape).Idx → EReal) (dt : (⟨2, ![128, 2048]⟩ : Shape).Idx → BitVec 32)
    (qt : (⟨2, ![128, 32]⟩ : Shape).Idx → BitVec 32) : (⟨4, ![128, 4, 32, 30]⟩ : Shape).Idx → EReal :=
  fun i => Gat x dt qt (i 0) (i 1) (i 2) (i 3)

theorem G_ix4 (x : (⟨4, ![128, 4, 32, 2048]⟩ : Shape).Idx → EReal) (dt : (⟨2, ![128, 2048]⟩ : Shape).Idx → BitVec 32)
    (qt : (⟨2, ![128, 32]⟩ : Shape).Idx → BitVec 32) (b : Fin 128) (c : Fin 4) (q : Fin 32) (v : Fin 30) :
    G x dt qt (ix4 b c q v) = Gat x dt qt b c q v := rfl

/-- An array that agrees with `Gat` at every coordinate is `G`. -/
theorem eq_G_of_forall (x : (⟨4, ![128, 4, 32, 2048]⟩ : Shape).Idx → EReal) (dt : (⟨2, ![128, 2048]⟩ : Shape).Idx → BitVec 32)
    (qt : (⟨2, ![128, 32]⟩ : Shape).Idx → BitVec 32) (y : (⟨4, ![128, 4, 32, 30]⟩ : Shape).Idx → EReal)
    (h : ∀ (b : Fin 128) (c : Fin 4) (q : Fin 32) (v : Fin 30), y (ix4 b c q v) = Gat x dt qt b c q v) :
    y = G x dt qt := by
  funext i
  rw [eq_ix4 i]
  exact h (i 0) (i 1) (i 2) (i 3)

/-- The values of `valid` and `hit`. -/
theorem valid_eq (t : BitVec 32) : valid t = if t = 4294967295#32 then 0 else 1 := by
  unfold valid IntOp.cmpi
  by_cases h : t = 4294967295#32
  · subst h; simp
  · rw [if_neg h]
    have : (t != 4294967295#32) = true := by simpa using h
    simp [this]

theorem hit_eq (b v : BitVec 32) : hit b v = if b = v then 1 else 0 := by
  unfold hit IntOp.cmpi
  by_cases h : b = v
  · subst h; simp
  · rw [if_neg h]
    have : (b == v) = false := by simpa using h
    simp [this]

end Cert.Hist

end
-- ==== Proof.KernelRunDefs.lean ====
/-
  What the kernel body has to be shown to store, stated once so that the body's reading and the step from blocks
  to the whole array can be proved apart: at the position (c, q, v) of the output block, the sum over the
  document positions d of the block of [bin of the similarity at (c, q, d) is v] · (query token present ·
  document token present), the three input blocks being the similarities, the document tokens and the query tokens.
-/
import proofs.«130759_j2319282340172_1_alg».proof.Defs
import proofs.«130759_j2319282340172_1_alg».proof.Proof.Gen.KernelIdeal.Value
import proofs.«130759_j2319282340172_1_alg».proof.Proof.Spec

noncomputable section

namespace Cert.KernelIdeal.HistValue

open Cert.KernelIdeal Cert.KernelIdeal.Gen Idealize.ShloMosaic Idealize.ShloMosaic.ValueIdx

/-- The kernel body's stored block, read at a position, is the weighted count of the block's document positions
    whose bin is that position's bin. -/
def BodyReads : Prop :=
  ∀ (x0 : Vec Ideal S1x4x32x2048 .f32) (x1 : Vec Ideal S1x1x2048 .i32) (x2 : Vec Ideal S1x32x1 .i32)
    (c : Fin 4) (q : Fin 32) (v : Fin 30),
    out0_3 (F := Ideal) x0 x1 x2 (ix4 (0 : Fin 1) c q v)
      = ∑ d : Fin 2048, Cert.Hist.hit (Cert.Hist.binOf (x0 (ix4 (0 : Fin 1) c q d))) (BitVec.ofNat 32 v.val)
          * (Cert.Hist.valid (x2 (ix3 (0 : Fin 1) q (0 : Fin 1))) * Cert.Hist.valid (x1 (ix3 (0 : Fin 1) (0 : Fin 1) d)))

end Cert.KernelIdeal.HistValue

end
-- ==== Proof.KernelBody.lean ====
/-
  The value the kernel body stores, read at one position of the output block.

  The body computes, from a block of similarities s[c, q, d], a row of document tokens and a column of query
  tokens, thirty lane sums: for each bin value n = 0 … 29 the vector over (c, q) of

      ∑ d, [bin (s[c, q, d]) = n] · (present (query token q) · present (document token d)),

  and lays the thirty results side by side along the last axis. Read at (c, q, v) the stored block is therefore
  the v-th of these sums at (c, q). The steps below follow that sentence: the one whole-block store leaves its
  payload; the payload is a re-shaping of a concatenation of thirty pieces of extent one; the piece its last
  coordinate names is a re-shaped lane sum; a lane sum at the ideal values is a finite sum over the lane
  coordinate; and the summand, read at (c, q, d), is the product of the indicator of the bin with the two
  presence flags.
-/
import proofs.«130759_j2319282340172_1_alg».proof.Proof.KernelRunDefs
import Idealize.ShloMosaic.PureOps.Ideal.Laws

noncomputable section

namespace Cert.KernelIdeal.HistBody

open Cert.KernelIdeal Cert.KernelIdeal.Gen Idealize.ShloMosaic Idealize.ShloMosaic.ValueIdx

/-! ### The common term of the thirty pieces -/

/-- The piece for the bin value `n`: at (c, q, 0) the sum over the lane coordinate d of
    [bins (c, q, d) = n] · w (c, q, d), kept as a vector of extent one along the last axis. -/
def piece (n : BitVec 32) (bins : IVec S4x32x2048 32) (w : FVec Ideal S4x32x2048 .f32) : FVec Ideal S4x32x1 .f32 :=
  shapeCast S4x32x1
    (multiReduction .add [2] S4x32
      (mulf (sitofp .f32 (extui 32 (cmpi .eq bins (broadcast S4x32x2048 n)) natLt_1_32)) w)
      0x00000000#32 reduces_S4x32x2048_S4x32 (.inl rfl) rfl)
    shapeCasts_S4x32_S4x32x1

/-! ### The stored block is the re-shaped concatenation of the thirty pieces -/

/-- The zero offsets of a rank-4 block, as the constant function. -/
theorem hz4 : (![0, 0, 0, 0] : Fin 4 → Nat) = fun _ => 0 := funext fun a => by fin_cases a <;> rfl

/-- The zero offsets of a rank-3 block, as the constant function. -/
theorem hz3 : (![0, 0, 0] : Fin 3 → Nat) = fun _ => 0 := funext fun a => by fin_cases a <;> rfl

/-- Reading a whole block at zero offsets gives the block: the similarities, -/
theorem ld0 (x0 : Vec Ideal S1x4x32x2048 .f32) : View.ld x0 r0_0 = x0 := View.ld_unit_zero (S := S1x4x32x2048) hz4 _ x0

/-- the document tokens, -/
theorem ld1 (x1 : Vec Ideal S1x1x2048 .i32) : View.ld x1 r0_1 = x1 := View.ld_unit_zero (S := S1x1x2048) hz3 _ x1

/-- and the query tokens. -/
theorem ld2 (x2 : Vec Ideal S1x32x1 .i32) : View.ld x2 r0_2 = x2 := View.ld_unit_zero (S := S1x32x1) hz3 _ x2

/-- Thirty shapes [4, 32, 1] laid along the last axis fill [4, 32, 30], whatever the pieces hold. -/
theorem hcat (f : Fin 30 → (S4x32x1.Idx → Ideal .f32)) :
    Shape.Concatenates ((List.ofFn fun n : Fin 30 => (⟨S4x32x1, f n⟩ : (s : Shape) × (s.Idx → Ideal .f32))).map (·.1)) S4x32x30 2 := by
  have e : ((List.ofFn fun n : Fin 30 => (⟨S4x32x1, f n⟩ : (s : Shape) × (s.Idx → Ideal .f32))).map (·.1))
      = List.replicate 30 S4x32x1 := by
    rw [List.map_ofFn]; exact List.ofFn_const 30 S4x32x1
  rw [e]; decide

/-- The one store covers the whole block, so the block holds its payload; each of the payload's thirty
    operands is the common term at its own bin value 0, 1, …, 29, over the same bins and the same weights. -/
theorem out_eq (x0 : Vec Ideal S1x4x32x2048 .f32) (x1 : Vec Ideal S1x1x2048 .i32) (x2 : Vec Ideal S1x32x1 .i32) :
    out0_3 (F := Ideal) x0 x1 x2
      = shapeCast S1x4x32x30
          (concatenate S4x32x30 2
            (List.ofFn fun n : Fin 30 => (⟨S4x32x1, piece (BitVec.ofNat 32 n.val) (k0_pay4 x0) (k0_pay5 x1 x2)⟩ : (s : Shape) × (s.Idx → Ideal .f32)))
            (hcat _))
          shapeCasts_S4x32x30_S1x4x32x30 := by
  unfold out0_3
  rw [View.canon_unit_zero hz4]
  rw [ld0, ld1, ld2]
  rfl

/-! ### Reading at a position -/

/-- Adding the leading unit axis keeps the row-major position: (0, c, q, v) reads (c, q, v). -/
theorem out_cast_apply (y : FVec Ideal S4x32x30 .f32) (c : Fin 4) (q : Fin 32) (v : Fin 30) :
    shapeCast S1x4x32x30 y shapeCasts_S4x32x30_S1x4x32x30 (ix4 (0 : Fin 1) c q v) = y (ix3 c q v) := by
  refine shapeCast_apply y _ (ix4 (0 : Fin 1) c q v) (ix3 c q v) ?_
  rw [Shape.rowMajor_val_three, Shape.rowMajor_val_four]
  show (c.val * 32 + q.val) * 30 + v.val = ((0 * 4 + c.val) * 32 + q.val) * 30 + v.val
  omega

/-- Thirty pieces of extent one along the last axis: position (c, q, v) falls in piece v, at (c, q, 0). -/
theorem cat_apply (f : Fin 30 → (S4x32x1.Idx → Ideal .f32)) (c : Fin 4) (q : Fin 32) (v : Fin 30) :
    concatenate S4x32x30 2 (List.ofFn fun n : Fin 30 => (⟨S4x32x1, f n⟩ : (s : Shape) × (s.Idx → Ideal .f32))) (hcat f) (ix3 c q v)
      = f v (ix3 c q (0 : Fin 1)) := by
  refine concatenate_ofFn_unit_apply _ f (hcat f) rfl rfl (ix3 c q v) v rfl (ix3 c q (0 : Fin 1)) ?_
  intro b hb
  match b with
  | ⟨0, _⟩ => rfl
  | ⟨1, _⟩ => rfl
  | ⟨2, _⟩ => exact absurd rfl hb

/-- The sum along the last axis of a [4, 32, 2048] vector, at (c, q): the sum over d of the entries (c, q, d). -/
theorem sum_lane (src : FVec Ideal S4x32x2048 .f32) (c : Fin 4) (q : Fin 32) :
    multiReduction .add [2] S4x32 src 0x00000000#32 reduces_S4x32x2048_S4x32 (.inl rfl) rfl (ix2 c q)
      = ∑ d : Fin 2048, src (ix3 c q d) := by
  refine (Ideal.multiReduction_add_single src 0x00000000#32 reduces_S4x32x2048_S4x32 (.inl rfl) rfl (ix2 c q)).trans ?_
  show ∑ d : Fin 2048, src (reduces_S4x32x2048_S4x32.lift (ix2 c q) d) = ∑ d : Fin 2048, src (ix3 c q d)
  refine Finset.sum_congr rfl fun d _ => congrArg src ?_
  funext a
  apply Fin.ext
  match a with
  | ⟨0, _⟩ => rfl
  | ⟨1, _⟩ => rfl
  | ⟨2, _⟩ => rfl

/-- A piece at (c, q, 0): the sum over d of [bins (c, q, d) = n] · w (c, q, d). The indicator, a one-bit
    comparison widened to 32 bits and read as a real, is `Cert.Hist.hit` by definition. -/
theorem piece_apply (n : BitVec 32) (b : IVec S4x32x2048 32) (w : FVec Ideal S4x32x2048 .f32) (c : Fin 4) (q : Fin 32) :
    piece n b w (ix3 c q (0 : Fin 1))
      = ∑ d : Fin 2048, Cert.Hist.hit (b (ix3 c q d)) n * w (ix3 c q d) := by
  unfold piece
  refine (shapeCast_apply _ _ (ix3 c q (0 : Fin 1)) (ix2 c q) ?_).trans ?_
  · rw [Shape.rowMajor_val_two, Shape.rowMajor_val_three]
    show c.val * 32 + q.val = (c.val * 32 + q.val) * 1 + 0
    omega
  refine (sum_lane _ c q).trans ?_
  rfl

/-! ### The bins and the weights at a position -/

/-- The bin at (c, q, d) is the bin of the similarity at (0, c, q, d): dropping the leading unit axis keeps the
    row-major position, and the arithmetic ((s + 1.00001) / 2 · 29, truncated) is `Cert.Hist.binOf`'s. -/
theorem bins_apply (x0 : Vec Ideal S1x4x32x2048 .f32) (c : Fin 4) (q : Fin 32) (d : Fin 2048) :
    k0_pay4 (F := Ideal) x0 (ix3 c q d) = Cert.Hist.binOf (x0 (ix4 (0 : Fin 1) c q d)) := by
  have e : shapeCast S4x32x2048 x0 shapeCasts_S1x4x32x2048_S4x32x2048 (ix3 c q d) = x0 (ix4 (0 : Fin 1) c q d) := by
    refine shapeCast_apply x0 _ (ix3 c q d) (ix4 (0 : Fin 1) c q d) ?_
    rw [Shape.rowMajor_val_three, Shape.rowMajor_val_four]
    show ((0 * 4 + c.val) * 32 + q.val) * 2048 + d.val = (c.val * 32 + q.val) * 2048 + d.val
    omega
  unfold Cert.Hist.binOf
  rw [← e]
  rfl

/-- The query-side presence flags: 1 where the query token is not -1, as a [32, 1] column. -/
def qflag (x2 : Vec Ideal S1x32x1 .i32) : FVec Ideal S32x1 .f32 :=
  sitofp .f32 (extui 32 (cmpi .ne (shapeCast S32x1 x2 shapeCasts_S1x32x1_S32x1) (broadcast S32x1 4294967295#32)) natLt_1_32)

/-- The document-side presence flags: 1 where the document token is not -1, as a [1, 2048] row. -/
def dflag (x1 : Vec Ideal S1x1x2048 .i32) : FVec Ideal S1x2048 .f32 :=
  sitofp .f32 (extui 32 (cmpi .ne (shapeCast S1x2048 x1 shapeCasts_S1x1x2048_S1x2048) (broadcast S1x2048 4294967295#32)) natLt_1_32)

/-- The weights are the outer product of the column and the row, repeated over the four channels. -/
theorem pay5_eq (x1 : Vec Ideal S1x1x2048 .i32) (x2 : Vec Ideal S1x32x1 .i32) :
    k0_pay5 (F := Ideal) x1 x2
      = broadcastTo S4x32x2048
          (shapeCast S1x32x2048
            (shapeCast S1x32x2048
              (mulf (broadcastTo S32x2048 (qflag x2) broadcasts_S32x1_S32x2048)
                (broadcastTo S32x2048 (dflag x1) broadcasts_S1x2048_S32x2048))
              shapeCasts_S32x2048_S1x32x2048)
            shapeCasts_S1x32x2048_S1x32x2048)
          broadcasts_S1x32x2048_S4x32x2048 := rfl

/-- The column at q is the presence of the query token at (0, q, 0). -/
theorem qflag_apply (x2 : Vec Ideal S1x32x1 .i32) (q : Fin 32) :
    qflag x2 (ix2 q (0 : Fin 1)) = Cert.Hist.valid (x2 (ix3 (0 : Fin 1) q (0 : Fin 1))) := by
  have e : shapeCast S32x1 x2 shapeCasts_S1x32x1_S32x1 (ix2 q (0 : Fin 1)) = x2 (ix3 (0 : Fin 1) q (0 : Fin 1)) := by
    refine shapeCast_apply x2 _ (ix2 q (0 : Fin 1)) (ix3 (0 : Fin 1) q (0 : Fin 1)) ?_
    rw [Shape.rowMajor_val_two, Shape.rowMajor_val_three]
    show (0 * 32 + q.val) * 1 + 0 = q.val * 1 + 0
    omega
  unfold Cert.Hist.valid
  rw [← e]
  rfl

/-- The row at d is the presence of the document token at (0, 0, d). -/
theorem dflag_apply (x1 : Vec Ideal S1x1x2048 .i32) (d : Fin 2048) :
    dflag x1 (ix2 (0 : Fin 1) d) = Cert.Hist.valid (x1 (ix3 (0 : Fin 1) (0 : Fin 1) d)) := by
  have e : shapeCast S1x2048 x1 shapeCasts_S1x1x2048_S1x2048 (ix2 (0 : Fin 1) d) = x1 (ix3 (0 : Fin 1) (0 : Fin 1) d) := by
    refine shapeCast_apply x1 _ (ix2 (0 : Fin 1) d) (ix3 (0 : Fin 1) (0 : Fin 1) d) ?_
    rw [Shape.rowMajor_val_two, Shape.rowMajor_val_three]
    show (0 * 1 + 0) * 2048 + d.val = 0 * 2048 + d.val
    omega
  unfold Cert.Hist.valid
  rw [← e]
  rfl

/-- The weight at (c, q, d) does not depend on c: it is the query flag at q times the document flag at d. -/
theorem weights_apply (x1 : Vec Ideal S1x1x2048 .i32) (x2 : Vec Ideal S1x32x1 .i32) (c : Fin 4) (q : Fin 32) (d : Fin 2048) :
    k0_pay5 (F := Ideal) x1 x2 (ix3 c q d)
      = Cert.Hist.valid (x2 (ix3 (0 : Fin 1) q (0 : Fin 1))) * Cert.Hist.valid (x1 (ix3 (0 : Fin 1) (0 : Fin 1) d)) := by
  rw [pay5_eq, shapeCast_self]
  refine (broadcastTo_apply _ _ (ix3 c q d) (ix3 (0 : Fin 1) q d) ?_).trans ?_
  · intro a
    match a with
    | ⟨0, _⟩ => rfl
    | ⟨1, _⟩ => rfl
    | ⟨2, _⟩ => rfl
  refine (shapeCast_apply _ _ (ix3 (0 : Fin 1) q d) (ix2 q d) ?_).trans ?_
  · rw [Shape.rowMajor_val_two, Shape.rowMajor_val_three]
    show q.val * 2048 + d.val = (0 * 32 + q.val) * 2048 + d.val
    omega
  rw [mulf_apply, ← qflag_apply, ← dflag_apply]
  refine congrArg₂ (· * ·) ?_ ?_
  · refine broadcastTo_apply _ _ (ix2 q d) (ix2 q (0 : Fin 1)) ?_
    intro a
    match a with
    | ⟨0, _⟩ => rfl
    | ⟨1, _⟩ => rfl
  · refine broadcastTo_apply _ _ (ix2 q d) (ix2 (0 : Fin 1) d) ?_
    intro a
    match a with
    | ⟨0, _⟩ => rfl
    | ⟨1, _⟩ => rfl

/-! ### The stored block at a position -/

/-- At (0, c, q, v) the stored block holds the weighted count of the document positions d whose bin is v. -/
theorem out0_3_apply : Cert.KernelIdeal.HistValue.BodyReads := by
  intro x0 x1 x2 c q v
  rw [out_eq, out_cast_apply]
  refine (cat_apply (fun n : Fin 30 => piece (BitVec.ofNat 32 n.val) (k0_pay4 x0) (k0_pay5 x1 x2)) c q v).trans ?_
  refine (piece_apply _ _ _ c q).trans ?_
  refine Finset.sum_congr rfl fun d _ => ?_
  rw [bins_apply, weights_apply]

end Cert.KernelIdeal.HistBody

end
-- ==== Proof.KernelRun.lean ====
/-
  From the blocks the kernel writes to its whole output array.

  The launch has one grid point per batch row. At point t the four windows sit at block index (t, 0, …, 0): the
  similarity block is row t of the similarities, the document-token block is row t of the document tokens (seen
  through a broadcast that inserts a unit axis in the middle), the query-token block is row t of the query tokens
  (seen through a broadcast that appends a unit axis), and the output block is row t of the result. Given what the
  body stores into its output block as a function of its three input blocks, the block written at point t is
  therefore row t of the histogram G of the argument arrays; the 128 rows cover the result, so after the run the
  result array is G.
-/
import proofs.«130759_j2319282340172_1_alg».proof.Proof.KernelRunDefs
import Idealize.ShloMosaic.Lib.Pipeline.Value
import Idealize.ShloMosaic.Lib.Tactic

noncomputable section

namespace Cert.KernelIdeal.HistValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Every window's block index at point t is (t, 0, …, 0). -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The batch row a grid point works on. -/
def rowOf (t : Fin cfg0.N) : Fin 128 := Fin.cast N_0 t

theorem rowOf_val (t : Fin cfg0.N) : (rowOf t).val = t.val := rfl

/-- When the region is entered, the document-token window's array is the document tokens with a unit axis inserted
    in the middle. -/
theorem docArray_eq (c : Dev nD) :
    (V m c main_v0 : (⟨S128x1x2048, .i32⟩ : BufTy).Contents (Elt Ideal))
      = broadcastInDim S128x1x2048 ![0, 2] bcast_S128x2048_S128x1x2048_0_2 (m ((c : Thread nD τ).loc main_arg2)) := by
  dsimp only [Gen.V, Gen.hostOps0]; after_results

/-- When the region is entered, the query-token window's array is the query tokens with a unit axis appended. -/
theorem queryArray_eq (c : Dev nD) :
    (V m c main_v1 : (⟨S128x32x1, .i32⟩ : BufTy).Contents (Elt Ideal))
      = broadcastInDim S128x32x1 ![0, 1] bcast_S128x32_S128x32x1_0_1 (m ((c : Thread nD τ).loc main_arg3)) := by
  dsimp only [Gen.V, Gen.hostOps0]; after_results

/-- The similarity block at point t is row t of the similarities. -/
theorem simBlock_apply (c : Dev nD) (t : Fin cfg0.N) (cc : Fin 4) (q : Fin 32) (d : Fin 2048) :
    (iblk m c 0 t : Vec Ideal S1x4x32x2048 .f32) (ix4 (0 : Fin 1) cc q d)
      = (m ((c : Thread nD τ).loc main_arg0) : S128x4x32x2048.Idx → EReal) (ix4 (rowOf t) cc q d) := by
  obtain ⟨e0, e1, e2, e3, -⟩ := index_facts t
  unfold iblk
  rw [View.read_apply]
  show V m c main_arg0 _ = _
  rw [V_main_arg0]
  refine congrArg _ (funext fun a => Fin.ext ?_)
  match a with
  | ⟨0, _⟩ => show win0_0.index t (0 : Fin 4) * 1 + 1 * 0 = t.val; omega
  | ⟨1, _⟩ => show win0_0.index t (1 : Fin 4) * 4 + 1 * cc.val = cc.val; omega
  | ⟨2, _⟩ => show win0_0.index t (2 : Fin 4) * 32 + 1 * q.val = q.val; omega
  | ⟨3, _⟩ => show win0_0.index t (3 : Fin 4) * 2048 + 1 * d.val = d.val; omega

/-- The document-token block at point t is row t of the document tokens. -/
theorem docBlock_apply (c : Dev nD) (t : Fin cfg0.N) (d : Fin 2048) :
    (iblk m c 1 t : Vec Ideal S1x1x2048 .i32) (ix3 (0 : Fin 1) (0 : Fin 1) d)
      = (m ((c : Thread nD τ).loc main_arg2) : S128x2048.Idx → BitVec 32) (ix2 (rowOf t) d) := by
  obtain ⟨-, -, -, -, e0, e1, e2, -⟩ := index_facts t
  unfold iblk
  rw [View.read_apply]
  show V m c main_v0 _ = _
  rw [docArray_eq]
  refine broadcastInDim_apply _ bcast_S128x2048_S128x1x2048_0_2 _ _ (ix2 (rowOf t) d) (fun a => ?_)
  match a with
  | ⟨0, _⟩ =>
    show t.val = if (128 : Nat) = 1 then 0 else win0_1.index t (0 : Fin 3) * 1 + 1 * 0
    rw [if_neg (by decide)]; omega
  | ⟨1, _⟩ =>
    show d.val = if (2048 : Nat) = 1 then 0 else win0_1.index t (2 : Fin 3) * 2048 + 1 * d.val
    rw [if_neg (by decide)]; omega

/-- The query-token block at point t is row t of the query tokens. -/
theorem queryBlock_apply (c : Dev nD) (t : Fin cfg0.N) (q : Fin 32) :
    (iblk m c 2 t : Vec Ideal S1x32x1 .i32) (ix3 (0 : Fin 1) q (0 : Fin 1))
      = (m ((c : Thread nD τ).loc main_arg3) : S128x32.Idx → BitVec 32) (ix2 (rowOf t) q) := by
  obtain ⟨-, -, -, -, -, -, -, e0, e1, e2, -⟩ := index_facts t
  unfold iblk
  rw [View.read_apply]
  show V m c main_v1 _ = _
  rw [queryArray_eq]
  refine broadcastInDim_apply _ bcast_S128x32_S128x32x1_0_1 _ _ (ix2 (rowOf t) q) (fun a => ?_)
  match a with
  | ⟨0, _⟩ =>
    show t.val = if (128 : Nat) = 1 then 0 else win0_2.index t (0 : Fin 3) * 1 + 1 * 0
    rw [if_neg (by decide)]; omega
  | ⟨1, _⟩ =>
    show q.val = if (32 : Nat) = 1 then 0 else win0_2.index t (1 : Fin 3) * 32 + 1 * q.val
    rw [if_neg (by decide)]; omega

/-- One position of a stored block: if the three input blocks are row b of the three argument arrays, the body's
    stored value at (c, q, v) is the histogram at (b, c, q, v). -/
theorem stored_eq_Gat (hbody : BodyReads)
    (X : S128x4x32x2048.Idx → EReal) (DT : S128x2048.Idx → BitVec 32) (QT : S128x32.Idx → BitVec 32)
    (x0 : Vec Ideal S1x4x32x2048 .f32) (x1 : Vec Ideal S1x1x2048 .i32) (x2 : Vec Ideal S1x32x1 .i32) (b : Fin 128)
    (h0 : ∀ (cc : Fin 4) (q : Fin 32) (d : Fin 2048), x0 (ix4 (0 : Fin 1) cc q d) = X (ix4 b cc q d))
    (h1 : ∀ d : Fin 2048, x1 (ix3 (0 : Fin 1) (0 : Fin 1) d) = DT (ix2 b d))
    (h2 : ∀ q : Fin 32, x2 (ix3 (0 : Fin 1) q (0 : Fin 1)) = QT (ix2 b q))
    (cc : Fin 4) (q : Fin 32) (v : Fin 30) :
    out0_3 (F := Ideal) x0 x1 x2 (ix4 (0 : Fin 1) cc q v) = Cert.Hist.Gat X DT QT b cc q v := by
  rw [hbody x0 x1 x2 cc q v]
  unfold Cert.Hist.Gat
  refine Finset.sum_congr rfl fun d _ => ?_
  rw [h0, h1, h2]

/-- What point t writes back is block t of the histogram of the argument arrays. -/
theorem flushed_eq (hbody : BodyReads) (c : Dev nD) (t : Fin cfg0.N) :
    (dats m 0 c).flushed 3 t = ((cfg0.win 3).blk t).view.read (Elt Ideal)
      (Cert.Hist.G (m ((c : Thread nD τ).loc main_arg0)) (m ((c : Thread nD τ).loc main_arg2)) (m ((c : Thread nD τ).loc main_arg3))) := by
  rw [Value.flushed3]
  obtain ⟨-, -, -, -, -, -, -, -, -, -, e0, e1, e2, e3⟩ := index_facts t
  refine funext fun (y : S1x4x32x30.Idx) => ?_
  obtain ⟨a, cc, q, v, rfl⟩ : ∃ (a : Fin 1) (cc : Fin 4) (q : Fin 32) (v : Fin 30), y = ix4 a cc q v :=
    ⟨y 0, y 1, y 2, y 3, eq_ix4 y⟩
  obtain rfl : a = 0 := Subsingleton.elim _ _
  show out0_3 (F := Ideal) (iblk m c 0 t) (iblk m c 1 t) (iblk m c 2 t) (ix4 (0 : Fin 1) cc q v)
    = Cert.Hist.G _ _ _ (((cfg0.win 3).blk t).view.emb (ix4 (0 : Fin 1) cc q v))
  refine (stored_eq_Gat hbody _ _ _ _ _ _ (rowOf t) (simBlock_apply m c t) (docBlock_apply m c t) (queryBlock_apply m c t) cc q v).trans ?_
  refine (Cert.Hist.G_ix4 _ _ _ (rowOf t) cc q v).symm.trans (congrArg _ (funext fun a => Fin.ext ?_))
  match a with
  | ⟨0, _⟩ => show t.val = win0_3.index t (0 : Fin 4) * 1 + 1 * 0; omega
  | ⟨1, _⟩ => show cc.val = win0_3.index t (1 : Fin 4) * 4 + 1 * cc.val; omega
  | ⟨2, _⟩ => show q.val = win0_3.index t (2 : Fin 4) * 32 + 1 * q.val; omega
  | ⟨3, _⟩ => show v.val = win0_3.index t (3 : Fin 4) * 30 + 1 * v.val; omega

/-- An index of the result array is in point t's block iff each coordinate is in the block's range on its axis. -/
theorem mem_block (t : Fin cfg0.N) (i : S128x4x32x30.Idx) :
    i ∈ ((cfg0.win 3).blk t).view.set ↔ ∀ a : Fin 4, win0_3.index t a * S1x4x32x30.size a ≤ (i a).val
      ∧ (i a).val < win0_3.index t a * S1x4x32x30.size a + S1x4x32x30.size a := by
  show i ∈ ((View.whole main_v2).slice (win0_3.rect t)).set ↔ _
  rw [View.set_slice_whole, Rect.mem_set_unit]
  exact Iff.rfl

/-- Every index of the result array is in the block of the point of its own batch row. -/
theorem covered (i : S128x4x32x30.Idx) :
    ∃ t : Fin cfg0.N, (cfg0.win 3).flush t = true ∧ i ∈ ((cfg0.win 3).blk t).view.set := by
  have h0 : (i 0).val < 128 := (i 0).isLt
  have h1 : (i 1).val < 4 := (i 1).isLt
  have h2 : (i 2).val < 32 := (i 2).isLt
  have h3 : (i 3).val < 30 := (i 3).isLt
  let t : Fin cfg0.N := Fin.cast N_0.symm ⟨(i 0).val, h0⟩
  have ht : t.val = (i 0).val := rfl
  obtain ⟨-, -, -, -, -, -, -, -, -, -, e0, e1, e2, e3⟩ := index_facts t
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 4 ≤ (i 1).val ∧ (i 1).val < win0_3.index t (1 : Fin 4) * 4 + 4; omega
  | ⟨2, _⟩ => show win0_3.index t (2 : Fin 4) * 32 ≤ (i 2).val ∧ (i 2).val < win0_3.index t (2 : Fin 4) * 32 + 32; omega
  | ⟨3, _⟩ => show win0_3.index t (3 : Fin 4) * 30 ≤ (i 3).val ∧ (i 3).val < win0_3.index t (3 : Fin 4) * 30 + 30; omega

/-- The result array after the run is the histogram of the argument arrays. -/
theorem final (hbody : BodyReads) (c : Dev nD) :
    (dats m 0 c).arrAt 3 cfg0.N
      = Cert.Hist.G (m ((c : Thread nD τ).loc main_arg0)) (m ((c : Thread nD τ).loc main_arg2)) (m ((c : Thread nD τ).loc main_arg3)) :=
  (dats m 0 c).arrAt_eq_of_cover 3 (Cert.Hist.G _ _ _) (fun t _ => flushed_eq m hbody c t) covered

/-- The kernel's run: the result array ends at the histogram of the argument arrays, the arguments unchanged. -/
theorem run (hbody : BodyReads) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v2)
        = Cert.Hist.G (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m hbody c), (h c).2⟩) (Value.run_blocks m ρ)

end Cert.KernelIdeal.HistValue

end
-- ==== Proof.PreRange.lean ====
/-
  What the precondition says about the similarity values, and the range of a bin.

  * `range_of_pre`: the precondition is the conjunction of three "for all entries" statements about the
    similarity array — every entry is finite, every entry is at least -1, every entry is below 1 — so, when it
    holds, each entry `x` satisfies `-1 ≤ x < 1`.
  * `binOf_range`: for `-1 ≤ s < 1` the value `(s + c₁) / 2 · 29`, with `c₁ = 1 + 84 · 2⁻²³` slightly above 1,
    is a real number in `[0, 30)` (it is at least `(c₁ - 1) / 2 · 29 > 0` and below `(1 + c₁) / 2 · 29 < 29.001`),
    so its truncation toward zero is its floor, an integer in `[0, 29]`; that is far inside the 32-bit range, so
    neither the clamp nor the wrap-around of the 32-bit word changes it.
-/
import proofs.«130759_j2319282340172_1_alg».proof.Proof.Spec
import proofs.«130759_j2319282340172_1_alg».proof.Proof.Gen.Pre_finite_inputs
import Idealize.ShloMosaic.Lib.ReduceAll

noncomputable section

namespace Cert.Hist

open Idealize.ShloMosaic Idealize.ShloMosaic.ValueIdx

namespace PreRange

/-! ### The five f32 patterns involved, as real numbers -/

/-- The pattern `0x40000000` (sign 0, exponent 128, fraction 0) denotes `2`. -/
theorem c_two : Ideal.ofBits .f32 0x40000000#32 = ((2 : ℝ) : EReal) := by
  simp [Ideal.ofBits, Ideal.ieee, -EReal.coe_mul]; norm_num

/-- The pattern `0x41E80000` (exponent 131, fraction `0x680000`) denotes `1.8125 · 16 = 29`. -/
theorem c_29 : Ideal.ofBits .f32 0x41E80000#32 = ((29 : ℝ) : EReal) := by
  simp [Ideal.ofBits, Ideal.ieee, -EReal.coe_mul]; norm_num

/-- The pattern `0x3F800000` (exponent 127, fraction 0) denotes `1`. -/
theorem c_one : Ideal.ofBits .f32 0x3F800000#32 = ((1 : ℝ) : EReal) := by
  simp [Ideal.ofBits, Ideal.ieee, -EReal.coe_mul]; norm_num

/-- The pattern `0xBF800000` (sign 1, exponent 127, fraction 0) denotes `-1`. -/
theorem c_negone : Ideal.ofBits .f32 0xBF800000#32 = ((-1 : ℝ) : EReal) := by
  simp [Ideal.ofBits, Ideal.ieee, -EReal.coe_mul]; norm_num

/-- The pattern `0x3F800054` (exponent 127, fraction 84) denotes `(2²³ + 84) / 2²³`, the f32 nearest `1.00001`. -/
theorem c_eps : Ideal.ofBits .f32 0x3F800054#32 = (((8388692 : ℝ) / 8388608 : ℝ) : EReal) := by
  simp [Ideal.ofBits, Ideal.ieee, -EReal.coe_mul]; norm_num

/-- The extended real `-1` is the real `-1`. -/
theorem neg_one_eq : (-1 : EReal) = ((-1 : ℝ) : EReal) := by simp

/-- On a real argument the bin is the clamped truncation of the real `(r + c₁) · (1/2) · 29`. -/
theorem binOf_coe (r : ℝ) :
    binOf (r : EReal) = BitVec.ofInt 32 (Ideal.toIntClamped (-(2 ^ (32 - 1) : Nat)) ((2 ^ (32 - 1) : Nat) - 1)
      (((r + 8388692 / 8388608) * (1 / 2) * 29 : ℝ) : EReal)) := by
  unfold binOf
  rw [c_eps, c_two, c_29, Ideal.div_coe (two_ne_zero), ← EReal.coe_add, ← EReal.coe_mul, ← EReal.coe_mul]
  rfl

/-- An element of a comparison array being the true word says the comparison holds. -/
theorem of_ofBool_decide {p : Prop} [Decidable p] (e : BitVec.ofBool (decide p) = 1#1) : p := by
  by_contra hn
  rw [decide_eq_false hn] at e
  exact absurd e (by decide)

end PreRange

open PreRange

/-- For `-1 ≤ s < 1` the bin of `s` is one of `0, …, 29`. -/
theorem binOf_range (s : EReal) (h1 : (-1 : EReal) ≤ s) (h2 : s < 1) :
    0 ≤ (binOf s).toInt ∧ (binOf s).toInt < 30 := by
  rw [neg_one_eq] at h1
  rw [← EReal.coe_one] at h2
  induction s using EReal.rec with
  | bot => exact absurd h1 (not_le.2 (EReal.bot_lt_coe _))
  | top => exact absurd h2 (not_lt.2 le_top)
  | coe r =>
    have hr1 : (-1 : ℝ) ≤ r := EReal.coe_le_coe_iff.1 h1
    have hr2 : r < 1 := EReal.coe_lt_coe_iff.1 h2
    rw [binOf_coe, Ideal.toIntClamped_coe]
    -- the argument of the truncation lies in [0, 30)
    have ht0 : (0 : ℝ) ≤ (r + 8388692 / 8388608) * (1 / 2) * 29 := by nlinarith
    have ht1 : (r + 8388692 / 8388608) * (1 / 2) * 29 < 30 := by nlinarith
    rw [if_pos ht0]
    -- so its floor is an integer in [0, 29]
    have hf0 : (0 : ℤ) ≤ ⌊(r + 8388692 / 8388608) * (1 / 2) * 29⌋ := Int.floor_nonneg.2 ht0
    have hf1 : ⌊(r + 8388692 / 8388608) * (1 / 2) * 29⌋ < 30 := by
      rw [Int.floor_lt]; exact_mod_cast ht1
    generalize ⌊(r + 8388692 / 8388608) * (1 / 2) * 29⌋ = n at hf0 hf1
    -- which the clamp to the 32-bit range and the 32-bit word both leave alone
    rw [BitVec.toInt_ofInt_eq_self (by decide) (by omega) (by omega)]
    omega

/-- When the precondition holds, every similarity value lies in `[-1, 1)`. -/
theorem range_of_pre [Cert.Pre_finite_inputs.Facts] (x0 : FVec Ideal Cert.Pre_finite_inputs.S128x4x32x2048 .f32)
    (x1 : IVec Cert.Pre_finite_inputs.S128 32) (x2 : IVec Cert.Pre_finite_inputs.S128x2048 32) (x3 : IVec Cert.Pre_finite_inputs.S128x32 32)
    (h : Cert.Pre_finite_inputs.fn (F := Ideal) x0 x1 x2 x3 = fun _ => 1#1) (i : Cert.Pre_finite_inputs.S128x4x32x2048.Idx) :
    (-1 : EReal) ≤ x0 i ∧ x0 i < 1 := by
  -- the rank-0 shape has exactly one index
  haveI : Subsingleton Cert.Pre_finite_inputs.S_.Idx := ⟨fun a b => funext fun d => d.elim0⟩
  have h0 := congrFun h ValueIdx.ix0
  dsimp only [Cert.Pre_finite_inputs.fn] at h0
  -- the result is (finite ∧ lower bound) ∧ upper bound; keep the last two conjuncts
  obtain ⟨h12, h3⟩ := IntOp.andi_eq_one.1 h0
  obtain ⟨_, h2⟩ := IntOp.andi_eq_one.1 h12
  -- each conjunct is an "and" over all entries, so it holds at the entry `i`
  have e2 := Host.reduce_andi_all _ _ _ _ _ h2 i
  have e3 := Host.reduce_andi_all _ _ _ _ _ h3 i
  -- at an entry, each compares `x0 i` with the broadcast constant
  have g2 : Ideal.ofBits .f32 0xBF800000#32 ≤ x0 i := of_ofBool_decide e2
  have g3 : x0 i < Ideal.ofBits .f32 0x3F800000#32 := of_ofBool_decide e3
  rw [c_negone] at g2
  rw [c_one] at g3
  rw [neg_one_eq, ← EReal.coe_one]
  exact ⟨g2, g3⟩

end Cert.Hist

end
-- ==== Proof.RefWords.lean ====
/-
  The flat scatter position as a 32-bit word, and when it does not wrap.

  The reference adds each weight at the flat position `row · 30 + bin`, computed in 32-bit integer arithmetic, and
  then normalises a negative position by adding the array length 491520 (Python's negative indexing). For a row
  number below 16384 and a bin in [0, 30) the word arithmetic does not wrap: read as a signed integer the word is
  `row · 30 + bin`, it is not negative, and the normalisation leaves it alone. Two such positions are equal exactly
  when their rows and their bins are.
-/
import proofs.«130759_j2319282340172_1_alg».proof.Proof.Spec

noncomputable section

namespace Cert.Hist

open Idealize.ShloMosaic

/-- The flat position `row · 30 + bin` in 32-bit arithmetic. -/
def flatWord (r : Nat) (b : BitVec 32) : BitVec 32 := IntOp.addi (IntOp.muli (BitVec.ofNat 32 r) 30#32) b

/-- Python's normalisation of a possibly negative position into an array of length 491520. -/
def normIdx (w : BitVec 32) : BitVec 32 := Scalar.select (IntOp.cmpi .slt w 0#32) (IntOp.addi w 491520#32) w

/-- A word whose signed value is not negative has that value as its unsigned value. -/
theorem toNat_of_toInt_nonneg (b : BitVec 32) (h0 : 0 ≤ b.toInt) : (b.toNat : Int) = b.toInt := by
  have h := BitVec.toInt_eq_toNat_cond b
  have hlt := b.isLt
  split at h <;> omega

/-- A word below 2^31 has its unsigned value as its signed value. -/
theorem toInt_of_toNat_small (w : BitVec 32) (h : w.toNat < 2147483648) : w.toInt = (w.toNat : Int) := by
  have h' := BitVec.toInt_eq_toNat_cond w
  split at h' <;> omega

theorem flatWord_toInt (r : Nat) (hr : r < 16384) (b : BitVec 32) (h0 : 0 ≤ b.toInt) (h1 : b.toInt < 30) :
    (flatWord r b).toInt = (r : Int) * 30 + b.toInt := by
  have hb := toNat_of_toInt_nonneg b h0
  have hn : (flatWord r b).toNat = r * 30 + b.toNat := by
    unfold flatWord IntOp.addi IntOp.muli
    simp only [BitVec.toNat_add, BitVec.toNat_mul, BitVec.toNat_ofNat]
    omega
  rw [toInt_of_toNat_small _ (by omega), hn]
  push_cast
  omega

theorem normIdx_of_nonneg (w : BitVec 32) (h : 0 ≤ w.toInt) : normIdx w = w := by
  unfold normIdx IntOp.cmpi Scalar.select
  have hs : w.slt 0#32 = false := by
    rw [BitVec.slt]; simp; omega
  simp [hs]

/-- The normalised flat position of row `r` and bin `b`, read signed, is `r · 30 + b`. -/
theorem normIdx_flatWord_toInt (r : Nat) (hr : r < 16384) (b : BitVec 32) (h0 : 0 ≤ b.toInt) (h1 : b.toInt < 30) :
    (normIdx (flatWord r b)).toInt = (r : Int) * 30 + b.toInt := by
  have h := flatWord_toInt r hr b h0 h1
  rw [normIdx_of_nonneg _ (by rw [h]; omega), h]

/-- A bin in [0, 30) is the bin `v < 30` exactly when its signed value is `v`. -/
theorem eq_ofNat_iff_toInt (b : BitVec 32) (v : Nat) (hv : v < 30) :
    b = BitVec.ofNat 32 v ↔ b.toInt = (v : Int) := by
  constructor
  · intro h
    subst h
    rw [toInt_of_toNat_small _ (by simp only [BitVec.toNat_ofNat]; omega)]
    simp only [BitVec.toNat_ofNat]
    omega
  · intro h
    have hb := toNat_of_toInt_nonneg b (by omega)
    apply BitVec.eq_of_toNat_eq
    simp only [BitVec.toNat_ofNat]
    omega

end Cert.Hist

end
-- ==== Proof.RefRead.lean ====
/-
  The reference's intermediate arrays read at an index.

  Three stages of the reference feed its scatter: the bin of every similarity value, the weight of every
  (query position, document position) pair, and the flat position at which each weight is added. Read at an
  index they are: the bin of the similarity at that index; the product of "query token present" and "document
  token present" (the reference's conjunction of the two tests, converted to a number, is that product); and the
  normalised 32-bit word `row · 30 + bin` of the row `j / 2048` and the bin at row `j / 2048`, column `j % 2048`.
-/
import proofs.«130759_j2319282340172_1_alg».proof.Proof.Gen.ReferenceIdeal.Read
import proofs.«130759_j2319282340172_1_alg».proof.Proof.Spec
import proofs.«130759_j2319282340172_1_alg».proof.Proof.RefWords

noncomputable section

namespace Cert.ReferenceIdeal.HistRead

open Cert.ReferenceIdeal Cert.ReferenceIdeal.Gen Cert.ReferenceIdeal.Read Idealize.ShloMosaic Idealize.ShloMosaic.ValueIdx Cert.Hist

/-- The reference's bins, at an index: the bin of the similarity there. -/
theorem bins_apply (x0 : FVec Ideal S128x4x32x2048 .f32) (i : S128x4x32x2048.Idx) :
    val_main_v6 (F := Ideal) x0 i = binOf (x0 i) := by
  rw [val_main_v6_apply, val_main_v5_apply, val_main_v3_apply, val_main_v1_apply, val_main_v0_apply, val_main_cst_apply,
    val_main_v2_apply, val_main_cst_0_apply, val_main_v4_apply, val_main_cst_1_apply]
  rfl

/-- The conjunction of two "token present" tests, as a number, is the product of the two indicators. -/
theorem uitofp_and (s t : BitVec 32) :
    FloatOps.uitofp (F := Ideal) .f32 (IntOp.andi (IntOp.cmpi .ne s 4294967295#32) (IntOp.cmpi .ne t 4294967295#32))
      = valid t * valid s := by
  rw [valid_eq, valid_eq]
  show ((((IntOp.andi (IntOp.cmpi .ne s 4294967295#32) (IntOp.cmpi .ne t 4294967295#32)).toNat : ℝ)) : EReal) = _
  by_cases hs : s = 4294967295#32 <;> by_cases ht : t = 4294967295#32 <;>
    simp [IntOp.andi, IntOp.cmpi, hs, ht]

/-- The reference's weights, at an index: query token present times document token present. -/
theorem weight_apply (x2 : IVec S128x2048 32) (x3 : IVec S128x32 32) (b : Fin 128) (c : Fin 4) (q : Fin 32) (d : Fin 2048) :
    val_main_v18 (F := Ideal) x2 x3 (ix4 b c q d) = valid (x3 (ix2 b q)) * valid (x2 (ix2 b d)) := by
  rw [val_main_v18_apply, val_main_v17_apply, val_main_v16_apply, val_main_v15_apply, val_main_v13_apply, val_main_v9_apply,
    val_main_v8_apply, val_main_v7_apply, val_main_c_apply, val_main_v14_apply, val_main_v12_apply, val_main_v11_apply,
    val_main_v10_apply, val_main_c_2_apply]
  have e1 : idx_main_v9 (idx_main_v13 (idx_main_v17 (idx_main_v18 (ix4 b c q d)))) = ix2 b d :=
    funext fun a => match a with | ⟨0, _⟩ => rfl | ⟨1, _⟩ => rfl
  have e2 : idx_main_v12 (idx_main_v14 (idx_main_v17 (idx_main_v18 (ix4 b c q d)))) = ix2 b q :=
    funext fun a => match a with | ⟨0, _⟩ => rfl | ⟨1, _⟩ => rfl
  rw [e1, e2]
  exact uitofp_and _ _

/-- The flat position before normalisation, at position `j`: row `j / 2048` times 30 plus the bin there. -/
theorem flat_apply (x0 : FVec Ideal S128x4x32x2048 .f32) (j : Fin 33554432) :
    val_main_v26 (F := Ideal) x0 (ix1 j)
      = flatWord (j.val / 2048) (binOf (x0 (idx_main_v23 (idx_main_v26 (ix1 j))))) := by
  rw [val_main_v26_apply, val_main_v25_apply, val_main_v24_apply, val_main_v22_apply, val_main_v20_apply, val_main_v19_apply,
    val_main_v21_apply, val_main_c_3_apply, val_main_v23_apply, bins_apply]
  rfl

/-- The scatter's index array at `(j, 0)`: the normalised flat position. -/
theorem idx_apply (x0 : FVec Ideal S128x4x32x2048 .f32) (j : Fin 33554432) :
    val_main_v34 (F := Ideal) x0 (ix2 j (0 : Fin 1))
      = normIdx (flatWord (j.val / 2048) (binOf (x0 (idx_main_v23 (idx_main_v26 (ix1 j)))))) := by
  have e : idx_main_v34 (ix2 j (0 : Fin 1)) = ix1 j := funext fun a => match a with | ⟨0, _⟩ => rfl
  rw [val_main_v34_apply, e, val_main_v33_apply, val_main_v30_apply, val_main_v32_apply, val_main_v29_apply, val_main_c_5_apply,
    val_main_v31_apply, val_main_c_6_apply, flat_apply]
  rfl

end Cert.ReferenceIdeal.HistRead

end
-- ==== Proof.LibSumBlocks.lean ====
/-
  Regrouping a finite sum into blocks.

  A sum over the positions `0 … a·b·c − 1` of a function of the position is the triple sum over a block number
  `t < a`, a row `r < b` inside the block and a lane `l < c` inside the row, of the function at the position
  `(b·t + r)·c + l` — the row-major position of `(t, r, l)`. It holds in every commutative additive monoid, the
  extended reals included: only associativity and commutativity of the addition are used. Also: a sum over the
  indices of a rank-1 array is the sum over its one coordinate.
-/
import Idealize.ShloMosaic.Lib.ValueIdx

open scoped BigOperators

namespace Cert.Lib.SumBlocks

open Idealize.ShloMosaic Idealize.ShloMosaic.ValueIdx

/-- A sum over the positions below `m·n` is the double sum over the quotient `i < m` and the remainder `j < n` of the
    position `n·i + j`. -/
theorem sum_fin_mul {M : Type*} [AddCommMonoid M] (m n : ℕ) (g : ℕ → M) :
    ∑ k : Fin (m * n), g k.val = ∑ i : Fin m, ∑ j : Fin n, g (n * i.val + j.val) := by
  rw [← Equiv.sum_comp finProdFinEquiv (fun k : Fin (m * n) => g k.val), Fintype.sum_prod_type]
  refine Finset.sum_congr rfl fun i _ => Finset.sum_congr rfl fun j _ => ?_
  show g (j.val + n * i.val) = g (n * i.val + j.val)
  rw [Nat.add_comm]

/-- A sum over the positions below `N = a·b·c` is the triple sum over blocks, rows and lanes of the row-major position. -/
theorem sum_fin_blocks {M : Type*} [AddCommMonoid M] (a b c N : ℕ) (hN : N = a * b * c) (g : ℕ → M) :
    ∑ k : Fin N, g k.val = ∑ t : Fin a, ∑ r : Fin b, ∑ l : Fin c, g ((b * t.val + r.val) * c + l.val) := by
  subst hN
  rw [sum_fin_mul (a * b) c g, sum_fin_mul a b (fun u => ∑ l : Fin c, g (c * u + l.val))]
  refine Finset.sum_congr rfl fun t _ => Finset.sum_congr rfl fun r _ => Finset.sum_congr rfl fun l _ => ?_
  rw [Nat.mul_comm c]

/-- The indices of a rank-1 array are its coordinates … -/
def idxEquiv1 {n : ℕ} : (⟨1, ![n]⟩ : Shape).Idx ≃ Fin n where
  toFun i := i 0
  invFun k := ix1 k
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

end Cert.Lib.SumBlocks
-- ==== Proof.LibScatterAdd.lean ====
/-
  The accumulating scatter of the host program into a flat (rank-1) array at scalar indices, read at one position.

  The dimension numbers are those of `zeros(N).at[flat_idx].add(updates)`: the operand has one axis, which is an
  inserted window axis and the one axis the scatter indices address; the updates have no window axes; the scatter
  indices are an `[M, 1]` array whose second axis holds the (one-component) index vector. Update `j` therefore lands at
  the operand position equal to the signed value of `idx[j, 0]`, when that is inside `[0, N)`, and is dropped otherwise.
  At the ideal instance the scatter adds, to each operand element, the exact sum of the updates landing on it.
-/
import Idealize.ShloMosaic.PureOps
import Idealize.ShloMosaic.PureOps.Ideal
import Idealize.ShloMosaic.Lib.ValueIdx

noncomputable section

open scoped BigOperators

namespace Cert.Lib

open Idealize.ShloMosaic Idealize.ShloMosaic.ValueIdx

/-- The dimension numbers of a scatter into a flat array `[N]` of `M` scalar updates at an `[M, 1]` index array. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ :=
  ⟨[], [0], [0], 1, wf⟩

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- Update `j` reads its start on the operand's one axis at position `(j, 0)` of the scatter indices, signed. -/
theorem flat_start {N M w : Nat} (wf : ScatterDims.WF ⟨1, ![N]⟩ ⟨2, ![M, 1]⟩ ⟨1, ![M]⟩ [] [0] [0] 1)
    (idx : IVec ⟨2, ![M, 1]⟩ w) (j : Fin M) :
    (flatDims N M wf).start (ix1 j) idx 0 = (idx (ix2 j (0 : Fin 1))).toInt := by
  unfold ScatterDims.start
  rw [dif_pos (show (0 : Fin 1) ∈ (flatDims N M wf).scatterDimsToOperandDims from List.mem_singleton.mpr rfl)]
  have hsi : (flatDims N M wf).siIdx (ix1 j) ⟨List.idxOf (0 : Fin 1) (flatDims N M wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- The operand's one axis is an inserted one: the window coordinate on it is `0`. -/
theorem flat_window {N M : Nat} (wf : ScatterDims.WF ⟨1, ![N]⟩ ⟨2, ![M, 1]⟩ ⟨1, ![M]⟩ [] [0] [0] 1)
    (j : (⟨1, ![M]⟩ : Shape).Idx) : (flatDims N M wf).window j 0 = 0 := by
  unfold ScatterDims.window
  rw [dif_neg]
  intro h
  have h2 := (List.mem_filter.1 h).2
  simp at h2

/-- Update `j` lands on operand position `p` exactly when the signed value of `idx[j, 0]` is `p`. -/
theorem flat_resultIdx?_eq_some_iff {N M w : Nat} (wf : ScatterDims.WF ⟨1, ![N]⟩ ⟨2, ![M, 1]⟩ ⟨1, ![M]⟩ [] [0] [0] 1)
    (idx : IVec ⟨2, ![M, 1]⟩ w) (j : Fin M) (p : Fin N) :
    (flatDims N M wf).resultIdx? (ix1 j) idx = some (ix1 p) ↔ (idx (ix2 j (0 : Fin 1))).toInt = (p.val : Int) := by
  have hs := flat_start wf idx j
  have hw := flat_window wf (ix1 j)
  unfold ScatterDims.resultIdx?
  constructor
  · intro h
    split at h
    · rename_i hall
      have h1 := Option.some.inj h
      have h2 : ((flatDims N M wf).start (ix1 j) idx 0 + ((flatDims N M wf).window (ix1 j) 0 : Nat)).toNat = p.val :=
        congrArg (fun f => (f 0).val) h1
      have h3 := (hall 0).1
      rw [hs, hw] at h2 h3
      omega
    · exact absurd h (by simp)
  · intro h
    have hall : ∀ a, 0 ≤ (flatDims N M wf).start (ix1 j) idx a + ((flatDims N M wf).window (ix1 j) a : Nat) ∧
        (flatDims N M wf).start (ix1 j) idx a + ((flatDims N M wf).window (ix1 j) a : Nat)
          < ((⟨1, ![N]⟩ : Shape).size a : Nat) := by
      intro a
      obtain rfl : a = 0 := Subsingleton.elim _ _
      rw [hs, hw, h]
      have hp : p.val < N := p.isLt
      have hN : ((⟨1, ![N]⟩ : Shape).size 0 : Nat) = N := rfl
      rw [hN]
      omega
    rw [dif_pos hall]
    congr 1
    funext a
    obtain rfl : a = 0 := Subsingleton.elim _ _
    refine Fin.ext ?_
    show ((flatDims N M wf).start (ix1 j) idx 0 + ((flatDims N M wf).window (ix1 j) 0 : Nat)).toNat = p.val
    rw [hs, hw, h]
    omega

/-- THE FLAT ACCUMULATING SCATTER READ AT POSITION `p`, at the ideal instance: the operand's element at `p` plus the
    sum, over all `M` updates, of those whose index `idx[j, 0]` (read as a signed integer) equals `p`. Indices
    outside `[0, N)` match no position and so contribute nowhere. -/
theorem hostScatterAdd_flat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal) (p : Fin N) :
    Ideal.hostScatterAdd (⟨[], [0], [0], 1, wf⟩ : ScatterDims ⟨1, ![N]⟩ ⟨2, ![M, 1]⟩ ⟨1, ![M]⟩) x idx upd (ix1 p)
      = x (ix1 p) + ∑ j : Fin M, if (idx (ix2 j (0 : Fin 1))).toInt = (p.val : Int) then upd (ix1 j) else 0 := by
  show x (ix1 p) + ∑ j ∈ Finset.univ.filter (fun j => (flatDims N M wf).resultIdx? j idx = some (ix1 p)), upd j = _
  congr 1
  rw [Finset.sum_filter, sum_idx1]
  refine Finset.sum_congr rfl (fun j _ => ?_)
  by_cases h : (idx (ix2 j (0 : Fin 1))).toInt = (p.val : Int)
  · rw [if_pos h, if_pos ((flat_resultIdx?_eq_some_iff wf idx j p).2 h)]
  · rw [if_neg h, if_neg (fun h' => h ((flat_resultIdx?_eq_some_iff wf idx j p).1 h'))]

end Cert.Lib

end
-- ==== Proof.RefValue.lean ====
/-
  The reference's result is the histogram.

  The reference scatters every weight `w (b', q', d)` (one per position `(b', c', q', d)` of the similarity array, in
  row-major order: position `j` has row `j / 2048 = (b'·4 + c')·32 + q'` and column `d = j % 2048`) into a flat array
  of zeros at the position `row · 30 + bin`, and reshapes the flat array to [128, 4, 32, 30]. At the ideal instance the
  scattered array at a position is the sum of the weights that land there. When every bin lies in [0, 30) the
  position `row · 30 + bin` determines the row and the bin, so the weights that land at `((b·4 + c)·32 + q)·30 + v`
  are exactly those of row `(b, c, q)` whose bin is `v`: the sum over all positions collapses to the sum over the
  2048 columns of that row, which is the histogram's definition.
-/
import proofs.«130759_j2319282340172_1_alg».proof.Proof.RefRead
import proofs.«130759_j2319282340172_1_alg».proof.Proof.LibSumBlocks
import proofs.«130759_j2319282340172_1_alg».proof.Proof.LibScatterAdd
import Idealize.ShloMosaic.PureOps.Ideal.Laws

noncomputable section

namespace Cert.ReferenceIdeal.HistValue

open Cert.ReferenceIdeal Cert.ReferenceIdeal.Gen Cert.ReferenceIdeal.Read Idealize.ShloMosaic Idealize.ShloMosaic.ValueIdx
open Cert.Hist Cert.ReferenceIdeal.HistRead

/-- Position `n = row·2048 + d` of the flattened similarity array, with `row = (b·4 + c)·32 + q`, is the index
    `(b, c, q, d)`: through the two reshapes of the bins … -/
theorem idx_bins_row (b : Fin 128) (c : Fin 4) (q : Fin 32) (d : Fin 2048) (j : Fin 33554432)
    (hj : j.val = ((b.val * 4 + c.val) * 32 + q.val) * 2048 + d.val) :
    idx_main_v23 (idx_main_v26 (ix1 j)) = ix4 b c q d := by
  have hb := b.isLt; have hc := c.isLt; have hq := q.isLt; have hd := d.isLt
  funext a
  match a with
  | ⟨0, _⟩ => exact Fin.ext (by show (j.val / 2048 * 2048 + j.val % 2048) / 262144 = b.val; omega)
  | ⟨1, _⟩ => exact Fin.ext (by show (j.val / 2048 * 2048 + j.val % 2048) / 65536 % 4 = c.val; omega)
  | ⟨2, _⟩ => exact Fin.ext (by show (j.val / 2048 * 2048 + j.val % 2048) / 2048 % 32 = q.val; omega)
  | ⟨3, _⟩ => exact Fin.ext (by show (j.val / 2048 * 2048 + j.val % 2048) % 2048 = d.val; omega)

/-- … and through the one reshape of the weights. -/
theorem idx_weights_row (b : Fin 128) (c : Fin 4) (q : Fin 32) (d : Fin 2048) (j : Fin 33554432)
    (hj : j.val = ((b.val * 4 + c.val) * 32 + q.val) * 2048 + d.val) :
    idx_main_v28 (ix1 j) = ix4 b c q d := by
  have hb := b.isLt; have hc := c.isLt; have hq := q.isLt; have hd := d.isLt
  funext a
  match a with
  | ⟨0, _⟩ => exact Fin.ext (by show j.val / 262144 = b.val; omega)
  | ⟨1, _⟩ => exact Fin.ext (by show j.val / 65536 % 4 = c.val; omega)
  | ⟨2, _⟩ => exact Fin.ext (by show j.val / 2048 % 32 = q.val; omega)
  | ⟨3, _⟩ => exact Fin.ext (by show j.val % 2048 = d.val; omega)

/-- One term of the scattered sum, as a function of the position (0 beyond the array). -/
def term (x0 : FVec Ideal S128x4x32x2048 .f32) (x2 : IVec S128x2048 32) (x3 : IVec S128x32 32) (p : ℕ) (n : ℕ) : EReal :=
  if h : n < 33554432 then
    (if (val_main_v34 (F := Ideal) x0 (ix2 (⟨n, h⟩ : Fin 33554432) (0 : Fin 1))).toInt = (p : Int)
      then val_main_v28 (F := Ideal) x2 x3 (ix1 (⟨n, h⟩ : Fin 33554432)) else 0)
  else 0

/-- The signed value of the scatter position of the update at `n`. -/
theorem pos_toInt (x0 : FVec Ideal S128x4x32x2048 .f32)
    (hb : ∀ i, 0 ≤ (binOf (x0 i)).toInt ∧ (binOf (x0 i)).toInt < 30) (j : Fin 33554432) :
    (val_main_v34 (F := Ideal) x0 (ix2 j (0 : Fin 1))).toInt
      = ((j.val / 2048 : ℕ) : Int) * 30 + (binOf (x0 (idx_main_v23 (idx_main_v26 (ix1 j))))).toInt := by
  rw [idx_apply]
  exact normIdx_flatWord_toInt _ (by have := j.isLt; omega) _ (hb _).1 (hb _).2

/-- A term of another row is zero. -/
theorem term_other_row (x0 : FVec Ideal S128x4x32x2048 .f32) (x2 : IVec S128x2048 32) (x3 : IVec S128x32 32)
    (hb : ∀ i, 0 ≤ (binOf (x0 i)).toInt ∧ (binOf (x0 i)).toInt < 30)
    (row v : ℕ) (hv : v < 30) (i : Fin 16384) (hi : i.val ≠ row) (l : Fin 2048) :
    term x0 x2 x3 (row * 30 + v) (2048 * i.val + l.val) = 0 := by
  have hn : 2048 * i.val + l.val < 33554432 := by have := i.isLt; have := l.isLt; omega
  unfold term
  rw [dif_pos hn, if_neg]
  rw [pos_toInt x0 hb]
  have h := hb (idx_main_v23 (idx_main_v26 (ix1 (⟨2048 * i.val + l.val, hn⟩ : Fin 33554432))))
  have hl := l.isLt
  show ¬ (((2048 * i.val + l.val) / 2048 : ℕ) : Int) * 30 + _ = _
  have hdiv : (2048 * i.val + l.val) / 2048 = i.val := by omega
  rw [hdiv]
  push_cast
  omega

/-- A term of the row `(b, c, q)`, column `d`: the weight when the bin is `v`, else 0. -/
theorem term_row (x0 : FVec Ideal S128x4x32x2048 .f32) (x2 : IVec S128x2048 32) (x3 : IVec S128x32 32)
    (hb : ∀ i, 0 ≤ (binOf (x0 i)).toInt ∧ (binOf (x0 i)).toInt < 30)
    (b : Fin 128) (c : Fin 4) (q : Fin 32) (v : Fin 30) (d : Fin 2048) :
    term x0 x2 x3 (((b.val * 4 + c.val) * 32 + q.val) * 30 + v.val) (2048 * ((b.val * 4 + c.val) * 32 + q.val) + d.val)
      = hit (binOf (x0 (ix4 b c q d))) (BitVec.ofNat 32 v.val) * (valid (x3 (ix2 b q)) * valid (x2 (ix2 b d))) := by
  have hb' := b.isLt; have hc := c.isLt; have hq := q.isLt; have hd := d.isLt; have hv := v.isLt
  have hn : 2048 * ((b.val * 4 + c.val) * 32 + q.val) + d.val < 33554432 := by omega
  have hj : (⟨2048 * ((b.val * 4 + c.val) * 32 + q.val) + d.val, hn⟩ : Fin 33554432).val
      = ((b.val * 4 + c.val) * 32 + q.val) * 2048 + d.val := by show 2048 * _ + _ = _; omega
  unfold term
  rw [dif_pos hn, pos_toInt x0 hb, idx_bins_row b c q d _ hj, val_main_v28_apply, idx_weights_row b c q d _ hj, weight_apply,
    hit_eq]
  have hbin := hb (ix4 b c q d)
  have hdiv : (2048 * ((b.val * 4 + c.val) * 32 + q.val) + d.val) / 2048 = (b.val * 4 + c.val) * 32 + q.val := by omega
  show (if (((2048 * ((b.val * 4 + c.val) * 32 + q.val) + d.val) / 2048 : ℕ) : Int) * 30 + _ = _ then _ else _) = _
  rw [hdiv]
  by_cases hEq : binOf (x0 (ix4 b c q d)) = BitVec.ofNat 32 v.val
  · have ht := (eq_ofNat_iff_toInt _ v.val hv).1 hEq
    rw [if_pos hEq, one_mul, if_pos (by rw [ht]; push_cast; ring)]
  · have ht : (binOf (x0 (ix4 b c q d))).toInt ≠ (v.val : Int) := fun h => hEq ((eq_ofNat_iff_toInt _ v.val hv).2 h)
    rw [if_neg hEq, zero_mul, if_neg (by push_cast; omega)]

/-- The flat sum over all positions, regrouped by rows and columns. -/
theorem sum_positions (g : ℕ → EReal) :
    ∑ k : Fin 33554432, g k.val = ∑ i : Fin 16384, ∑ l : Fin 2048, g (2048 * i.val + l.val) :=
  Cert.Lib.SumBlocks.sum_fin_mul 16384 2048 g

/-- The program's scatter into the flat array of zeros, read at a position: the sum of the updates whose position,
    read as a signed integer, is that position. -/
theorem scatter_at (x : S491520.Idx → EReal) (idx : IVec S33554432x1 32) (upd : S33554432.Idx → EReal) (p : Fin 491520) :
    Host.scatterAdd (F := Ideal) (φ := .f32) scatter_S491520_S33554432x1_S33554432_n_0_0_1 x idx upd (ix1 p)
      = x (ix1 p) + ∑ j : Fin 33554432, if (idx (ix2 j (0 : Fin 1))).toInt = (p.val : Int) then upd (ix1 j) else 0 :=
  Cert.Lib.hostScatterAdd_flat_apply _ x idx upd p

/-- The reference's result at a position is the sum of the scatter's terms over all update positions. -/
theorem scatter_read (x0 : FVec Ideal S128x4x32x2048 .f32) (x2 : IVec S128x2048 32) (x3 : IVec S128x32 32)
    (b : Fin 128) (c : Fin 4) (q : Fin 32) (v : Fin 30) :
    val_main_v36 (F := Ideal) x0 x2 x3 (ix4 b c q v)
      = ∑ k : Fin 33554432, term x0 x2 x3 (((b.val * 4 + c.val) * 32 + q.val) * 30 + v.val) k.val := by
  have hb' := b.isLt; have hc := c.isLt; have hq := q.isLt; have hv := v.isLt
  have hplt : ((b.val * 4 + c.val) * 32 + q.val) * 30 + v.val < 491520 := by omega
  have hp : idx_main_v36 (ix4 b c q v) = ix1 (⟨((b.val * 4 + c.val) * 32 + q.val) * 30 + v.val, hplt⟩ : Fin 491520) :=
    funext fun a => match a with | ⟨0, _⟩ => rfl
  rw [val_main_v36_apply, hp]
  unfold val_main_v35
  rw [scatter_at, val_main_v27_apply, val_main_cst_4_apply]
  have hz : FloatOps.ofBits (F := Ideal) .f32 0x00000000#32 = 0 := Ideal.ofBits_zero_f32
  rw [hz, zero_add]
  refine Finset.sum_congr rfl fun j _ => ?_
  unfold term
  rw [dif_pos j.isLt]

/-- The reference's result at `(b, c, q, v)` is the histogram there. -/
theorem ref_at (x0 : FVec Ideal S128x4x32x2048 .f32) (x2 : IVec S128x2048 32) (x3 : IVec S128x32 32)
    (hb : ∀ i, 0 ≤ (binOf (x0 i)).toInt ∧ (binOf (x0 i)).toInt < 30)
    (b : Fin 128) (c : Fin 4) (q : Fin 32) (v : Fin 30) :
    val_main_v36 (F := Ideal) x0 x2 x3 (ix4 b c q v) = Gat x0 x2 x3 b c q v := by
  have hb' := b.isLt; have hc := c.isLt; have hq := q.isLt; have hv := v.isLt
  have hrow : (b.val * 4 + c.val) * 32 + q.val < 16384 := by omega
  rw [scatter_read, sum_positions,
    Finset.sum_eq_single (⟨(b.val * 4 + c.val) * 32 + q.val, hrow⟩ : Fin 16384)]
  · unfold Gat
    exact Finset.sum_congr rfl fun d _ => term_row x0 x2 x3 hb b c q v d
  · intro i _ hi
    exact Finset.sum_eq_zero fun l _ =>
      term_other_row x0 x2 x3 hb _ v.val hv i (fun h => hi (Fin.ext h)) l
  · intro h; exact absurd (Finset.mem_univ _) h

/-- The reference's result array is the histogram of its arguments, when every bin lies in [0, 30). -/
theorem ref_eq (x0 : FVec Ideal S128x4x32x2048 .f32) (x2 : IVec S128x2048 32) (x3 : IVec S128x32 32)
    (hb : ∀ i, 0 ≤ (binOf (x0 i)).toInt ∧ (binOf (x0 i)).toInt < 30) :
    val_main_v36 (F := Ideal) x0 x2 x3 = G x0 x2 x3 :=
  eq_G_of_forall x0 x2 x3 _ (fun b c q v => ref_at x0 x2 x3 hb b c q v)

end Cert.ReferenceIdeal.HistValue

end
-- ==== Proof.lean ====
/-
  The certificate of the weighted histogram kernel against its scatter-add reference.

  Both programs take a similarity array `x : [128, 4, 32, 2048]`, document tokens `dt : [128, 2048]` and query tokens
  `qt : [128, 32]` and return `[128, 4, 32, 30]`. Each similarity value `s` is assigned the bin
  `trunc ((s + 1.00001) / 2 · 29)`; the result at `(b, c, q, v)` counts the document positions `d` whose bin at
  `(b, c, q, d)` is `v`, each with weight 1 when both the query token at `(b, q)` and the document token at `(b, d)`
  are present and 0 otherwise (`Cert.Hist.G`, Proof/Spec.lean).

  * The kernel works one batch row per grid point: for each of the 30 bins it masks the weights by "bin = v" and sums
    along the document axis, then concatenates the 30 columns. Read at a position its stored block is the sum above
    (Proof/KernelBody.lean), and the 128 blocks tile the output array (Proof/KernelRun.lean): the kernel's result is
    `G` of its arguments, for every input.
  * The reference adds every weight into a flat array at position `row · 30 + bin`, `row = (b·4 + c)·32 + q`. At the
    ideal instance the scattered array at a position is the sum of the weights landing there
    (Proof/LibScatterAdd.lean). Under the precondition every similarity lies in [-1, 1), so every bin lies in
    [0, 30) (Proof/PreRange.lean); the 32-bit position arithmetic then does not wrap and a position determines its
    row and bin (Proof/RefWords.lean), so the weights landing at `row · 30 + v` are those of that row with bin `v`
    (Proof/RefValue.lean): the reference's result is `G` of its arguments too.
  * The conjunction of the two "token present" tests the reference converts to a number is the product of the two
    indicators the kernel multiplies; no other law of the extended reals is needed than `0 · w = 0`, `1 · w = w`
    and the reordering of a finite sum.

  The frames of the two kernel programs are the generated ones; the reference's frame is its generated run with the
  result dropped; the ideal pass rewrote nothing, so `preserves` is trivial.
-/
import proofs.«130759_j2319282340172_1_alg».proof.Defs
import proofs.«130759_j2319282340172_1_alg».proof.Proof.Gen.Kernel
import proofs.«130759_j2319282340172_1_alg».proof.Proof.Gen.Kernel.Skeleton
import proofs.«130759_j2319282340172_1_alg».proof.Proof.Gen.Kernel.Launch
import proofs.«130759_j2319282340172_1_alg».proof.Proof.Gen.Kernel.Points
import proofs.«130759_j2319282340172_1_alg».proof.Proof.Gen.Kernel.Frame
import proofs.«130759_j2319282340172_1_alg».proof.Proof.Gen.KernelIdeal
import proofs.«130759_j2319282340172_1_alg».proof.Proof.Gen.KernelIdeal.Skeleton
import proofs.«130759_j2319282340172_1_alg».proof.Proof.Gen.KernelIdeal.Launch
import proofs.«130759_j2319282340172_1_alg».proof.Proof.Gen.KernelIdeal.Points
import proofs.«130759_j2319282340172_1_alg».proof.Proof.Gen.KernelIdeal.Frame
import proofs.«130759_j2319282340172_1_alg».proof.Proof.Gen.ReferenceIdeal
import proofs.«130759_j2319282340172_1_alg».proof.Proof.Gen.Pre_finite_inputs
import proofs.«130759_j2319282340172_1_alg».proof.Proof.Gen.KernelIdeal.Value
import proofs.«130759_j2319282340172_1_alg».proof.Proof.Gen.ReferenceIdeal.Run
import proofs.«130759_j2319282340172_1_alg».proof.Proof.Gen.ReferenceIdeal.Read
import proofs.«130759_j2319282340172_1_alg».proof.Proof.KernelBody
import proofs.«130759_j2319282340172_1_alg».proof.Proof.KernelRun
import proofs.«130759_j2319282340172_1_alg».proof.Proof.PreRange
import proofs.«130759_j2319282340172_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, under the precondition, both programs end with the histogram of the
    arguments in their result array. -/
theorem algebraic : Cert.algebraic_KernelIdeal_ReferenceIdeal := by
  intro m ρ m' ρ' hpre hagree
  refine ⟨fun c => Cert.Hist.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HistValue.run Cert.KernelIdeal.HistBody.out0_3_apply m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, (hagree c).1, (hagree c).2.2.1, (hagree c).2.2.2]
  exact Cert.ReferenceIdeal.HistValue.ref_eq _ _ _ (fun i =>
    Cert.Hist.binOf_range _ (Cert.Hist.range_of_pre _ _ _ _ (hpre c) i).1 (Cert.Hist.range_of_pre _ _ _ _ (hpre c) i).2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
